-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x8192x1024 .f32) (main_arg1 : FVec F S8192x1024 .f32) (main_arg2 : FVec F S1024x1024 .f32) (main_arg3 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x8192x1024 : Shape := ⟨3, ![4, 8192, 1024]⟩
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S2x1024x1024 : Shape := ⟨3, ![2, 1024, 1024]⟩
abbrev S1x1024x1024 : Shape := ⟨3, ![1, 1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1x1024, .f32⟩
  | .hbm, ⟨5, _⟩ => ⟨S4x8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S2x1024x1024, .f32⟩
  | .local _ .vmem, ⟨5, _⟩ => ⟨S2x1024x1024, .f32⟩
  | .local _ .vmem, ⟨6, _⟩ => ⟨S2x1024x1024, .f32⟩
  | .local _ .vmem, ⟨7, _⟩ => ⟨S2x1024x1024, .f32⟩
  | .local _ .vmem, ⟨8, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x1024_S1024x1024 : S1024x1024.ShapeCasts S1024x1024
  inb_S2x1024x1024_S2x1024x1024_0_0_0 : ∀ a, (![0, 0, 0] : Fin 3 → Nat) a + S2x1024x1024.size a ≤ S2x1024x1024.size a
  h_S2x1024x1024 : 0 < S2x1024x1024.numel
  shapeCasts_S1024x1024_S1x1024x1024 : S1024x1024.ShapeCasts S1x1024x1024
  broadcasts_S1x1024x1024_S2x1024x1024 : S1x1024x1024.Broadcasts S2x1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1024x1024.size a ≤ S4x8192x1024.size a
  hwx0_3 : ∀ i : grid0.Coords, EltTy.bits .f32 = 32 ∨ (Rect.block (s := S4x8192x1024) S2x1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1024x1024.size a ≤ S4x8192x1024.size a
  hwx0_4 : ∀ i : grid0.Coords, EltTy.bits .f32 = 32 ∨ (Rect.block (s := S4x8192x1024) S2x1024x1024.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S2x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S8192x1024 : Shape := ⟨2, ![8192, 1024]⟩
abbrev S1024x1024 : Shape := ⟨2, ![1024, 1024]⟩
abbrev S1024 : Shape := ⟨1, ![1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x1024 : Shape := ⟨2, ![1, 1024]⟩
abbrev S1x8192x1024 : Shape := ⟨3, ![1, 8192, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S1, .i32⟩
  | .hbm, ⟨14, _⟩ => ⟨S_, .i32⟩
  | .hbm, ⟨15, _⟩ => ⟨S8192x1, .i32⟩
  | .hbm, ⟨16, _⟩ => ⟨S8192x1, .i1⟩
  | .hbm, ⟨17, _⟩ => ⟨S1x1, .i32⟩
  | .hbm, ⟨18, _⟩ => ⟨S8192x1, .i32⟩
  | .hbm, ⟨19, _⟩ => ⟨S8192x1, .i1⟩
  | .hbm, ⟨20, _⟩ => ⟨S8192x1, .i1⟩
  | .hbm, ⟨21, _⟩ => ⟨S_, .i1⟩
  | .hbm, ⟨22, _⟩ => ⟨S8192, .i1⟩
  | .hbm, ⟨23, _⟩ => ⟨S8192x1024, .f32⟩
  | .hbm, ⟨24, _⟩ => ⟨S8192x1024, .i1⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x8192x1024, .f32⟩
  | .hbm, ⟨33, _⟩ => ⟨S4x8192x1024, .f32⟩
  | .hbm, ⟨34, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x1024_0 : S8192.BroadcastsInDim S8192x1024 (![0] : Fin 1 → Fin S8192x1024.rank)
  bcast_S_S8192x1024 : S_.BroadcastsInDim S8192x1024 (![] : Fin 0 → Fin S8192x1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S8192x1024_S1x8192x1024_1_2 : S8192x1024.BroadcastsInDim S1x8192x1024 (![1, 2] : Fin 2 → Fin S1x8192x1024.rank)
  bcast_S1x8192x1024_S4x8192x1024_0_1_2 : S1x8192x1024.BroadcastsInDim S4x8192x1024 (![0, 1, 2] : Fin 3 → Fin S4x8192x1024.rank)
  gather_S8192x1024_S8192x1_S8192x1024_1_0_n_n_0_1_11024_wf : GatherDims.WF S8192x1024 S8192x1 S8192x1024 [1] [0] [] [0] [] 1 ![1, 1024]
  dot_S8192x1024_S1024x1024_S8192x1024_1_0_0_1_n_n_wf : DotDims.WF S8192x1024 S1024x1024 S8192x1024 [1] [0] [0] [1] [] []

variable [Facts₀]

def gather_S8192x1024_S8192x1_S8192x1024_1_0_n_n_0_1_11024 : GatherDims S8192x1024 S8192x1 S8192x1024 where
  offsetDims := [1]
  collapsedSliceDims := [0]
  operandBatchingDims := []
  startIndicesBatchingDims := []
  startIndexMap := [0]
  indexVectorDim := 1
  sliceSizes := ![1, 1024]
  wf := gather_S8192x1024_S8192x1_S8192x1024_1_0_n_n_0_1_11024_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.KerPieces.lean ====
/-
  What one run of the kernel body leaves behind, as values of what it loaded.

  The body has two cases. At the first batch step of a tile (case A) it stores the projected table tile
  `P = table_tile · W + bias` (the payload `k0_pay1`) whole into the scratch, reads it back, and stores `x + P` (the
  payload `k0_pay2`) whole into the output block. At the other batch step (case B) it stores nothing into the scratch and
  stores `x + (what the scratch held)` into the output block. Every store covers its buffer from the zero offset, so
  what each buffer ends holding is the one payload stored, and a whole-buffer load after the whole-buffer store reads
  that payload back.
-/
import proofs.«106605_g47974784697239_cont_8to1_c_969_7_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KerValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Case A leaves the projected tile in the scratch: the payload of its one whole store, of the three input blocks. -/
theorem scratch_A (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S2x1024x1024 .f32) (harg5 : arg5.IsWhole) (arg6 : Memref sig .tc .vmem S2x1024x1024 .f32) (harg6 : arg6.IsWhole) (arg7 : Memref sig .tc .vmem S1024x1024 .f32) (harg7 : arg7.IsWhole) (hc0 : cond0_0 i) (x0 : Vec F S1024x1024 .f32) (x1 : Vec F S1024x1024 .f32) (x2 : Vec F S1x1024 .f32) (x3 : Vec F S2x1024x1024 .f32) :
    sout0_A_0 c i arg2 harg2 arg3 harg3 arg4 harg4 arg5 harg5 arg6 harg6 arg7 harg7 hc0 x0 x1 x2 x3 = k0_pay1 x0 x1 x2 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero hz2]
  simp only [View.readAt_eq_ld, harg2.read_unread, harg3.read_unread, harg4.read_unread,
    View.ld_unit_zero (S := S1024x1024) hz2, View.ld_unit_zero (S := S1x1024) hz2]

/-- Case A leaves in the output block the input block plus the projected tile it has just stored and read back. -/
theorem out_A (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S2x1024x1024 .f32) (harg5 : arg5.IsWhole) (arg6 : Memref sig .tc .vmem S2x1024x1024 .f32) (harg6 : arg6.IsWhole) (arg7 : Memref sig .tc .vmem S1024x1024 .f32) (harg7 : arg7.IsWhole) (hc0 : cond0_0 i) (x0 : Vec F S1024x1024 .f32) (x1 : Vec F S1024x1024 .f32) (x2 : Vec F S1x1024 .f32) (x3 : Vec F S2x1024x1024 .f32) :
    out0_A_4 c i arg2 harg2 arg3 harg3 arg4 harg4 arg5 harg5 arg6 harg6 arg7 harg7 hc0 x0 x1 x2 x3 = k0_pay2 x3 (k0_pay1 x0 x1 x2) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero hz3, View.readCov_unit_zero (S := S1024x1024) _ hz2]
  simp only [View.readAt_eq_ld, harg2.read_unread, harg3.read_unread, harg4.read_unread, harg5.read_unread,
    View.ld_unit_zero (S := S1024x1024) hz2, View.ld_unit_zero (S := S1x1024) hz2,
    View.ld_unit_zero (S := S2x1024x1024) hz3]

/-- Case B leaves in the output block the input block plus what the scratch held when the point began. -/
theorem out_B (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S2x1024x1024 .f32) (harg5 : arg5.IsWhole) (arg6 : Memref sig .tc .vmem S2x1024x1024 .f32) (harg6 : arg6.IsWhole) (arg7 : Memref sig .tc .vmem S1024x1024 .f32) (harg7 : arg7.IsWhole) (hc0 : ¬cond0_0 i) (x0 : Vec F S1024x1024 .f32) (x1 : Vec F S1024x1024 .f32) (x2 : Vec F S1x1024 .f32) (x3 : Vec F S2x1024x1024 .f32) (xs0 : Vec F S1024x1024 .f32) :
    out0_B_4 c i arg2 harg2 arg3 harg3 arg4 harg4 arg5 harg5 arg6 harg6 arg7 harg7 hc0 x0 x1 x2 x3 xs0 = k0_pay2 x3 xs0 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  rw [View.canon_unit_zero hz3]
  simp only [View.readAt_eq_ld, harg5.read_unread, harg7.read_unread, View.ld_unit_zero (S := S2x1024x1024) hz3,
    View.ld_unit_zero (S := S1024x1024) hz2]

end Cert.KernelIdeal.KerValue

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.LibLeadAxis.lean ====
/-
  A rank-3 array `[a, b, c]` handled along its LEADING axis, read by coordinates.

  * `multiReduction_add_lead_apply`: a kernel's sum over the leading axis (`jnp.sum(x, axis=0)` of an `[a, b, c]` value), at
    the ideal values, is at `(p, q)` the sum over `k` of the entries `(k, p, q)`.
  * `broadcastTo_1bc_abc_apply`: a `[1, b, c]` value broadcast along a new leading extent `a` (`v[None, :, :]` against an
    `[a, b, c]` operand) reads at `(k, p, q)` its one slice at `(p, q)`.
  * `ld_slab_apply`: of an `[N, 1, a, b, c]` buffer, the slab at leading position `n` — loaded through the unit-stride
    rectangle of sizes `[1, 1, a, b, c]` at offsets `[n, 0, 0, 0, 0]` and cast to `[a, b, c]` (`x_ref[n]` of a block whose
    second axis is squeezed) — reads at `(k, p, q)` the buffer at `(n, 0, k, p, q)`.
-/
import Idealize.ShloMosaic.Lib.Pipeline.Value
import Idealize.ShloMosaic.Lib.ValueLayout
import Idealize.ShloMosaic.PureOps.Ideal.Laws

noncomputable section

open scoped BigOperators

namespace Cert.LeadAxis

open Idealize.ShloMosaic Idealize.ShloMosaic.ValueIdx

/-- The sum over the leading axis of an `[a, b, c]` value, at `(p, q)`: the sum over `k` of the entries `(k, p, q)`. -/
theorem multiReduction_add_lead_apply {a b c : ℕ} {φ : FTy} (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (p : Fin b) (q : Fin c) :
    multiReduction .add [0] ⟨2, ![b, c]⟩ src acc h hφ hacc (ix2 p q) = ∑ k : Fin a, src (ix3 k p q) := by
  refine (Ideal.multiReduction_add_single src acc h hφ hacc (ix2 p q)).trans ?_
  refine Finset.sum_congr rfl fun k _ => congrArg src ?_
  funext d
  apply Fin.ext
  match d with
  | ⟨0, _⟩ => rfl
  | ⟨1, _⟩ => rfl
  | ⟨2, _⟩ => rfl

/-- A `[1, b, c]` value broadcast to `[a, b, c]` reads, at `(k, p, q)`, its one slice at `(p, q)`. -/
theorem broadcastTo_1bc_abc_apply {α : Type} {a b c : ℕ} (v : (⟨3, ![1, b, c]⟩ : Shape).Idx → α)
    (h : (⟨3, ![1, b, c]⟩ : Shape).Broadcasts ⟨3, ![a, b, c]⟩) (k : Fin a) (p : Fin b) (q : Fin c) :
    broadcastTo ⟨3, ![a, b, c]⟩ v h (ix3 k p q) = v (ix3 (0 : Fin 1) p q) := by
  refine broadcastTo_apply v h (ix3 k p q) (ix3 (0 : Fin 1) p q) fun ax => ?_
  match ax with
  | ⟨0, _⟩ => rfl
  | ⟨1, _⟩ =>
    show p.val = if b = 1 then 0 else p.val
    split
    · have := p.isLt; omega
    · rfl
  | ⟨2, _⟩ =>
    show q.val = if c = 1 then 0 else q.val
    split
    · have := q.isLt; omega
    · rfl

/-- Slab `n` of an `[N, 1, a, b, c]` buffer, loaded through the rectangle at offsets `[n, 0, 0, 0, 0]` and cast to
    `[a, b, c]`, reads at `(k, p, q)` the buffer at `(n, 0, k, p, q)`. -/
theorem ld_slab_apply {α : Type} {N a b c : ℕ} (X : (⟨5, ![N, 1, a, b, c]⟩ : Shape).Idx → α) (n : ℕ) (hn : n < N)
    (inb : ∀ d, (![n, 0, 0, 0, 0] : Fin 5 → ℕ) d + (⟨5, ![1, 1, a, b, c]⟩ : Shape).size d ≤ (⟨5, ![N, 1, a, b, c]⟩ : Shape).size d)
    (h : (⟨5, ![1, 1, a, b, c]⟩ : Shape).ShapeCasts ⟨3, ![a, b, c]⟩) (k : Fin a) (p : Fin b) (q : Fin c) :
    shapeCast ⟨3, ![a, b, c]⟩
        (fun x => X ((Rect.unit (s := ⟨5, ![N, 1, a, b, c]⟩) ![n, 0, 0, 0, 0] (⟨5, ![1, 1, a, b, c]⟩ : Shape).size inb).idx x)) h (ix3 k p q)
      = X (ix5 (⟨n, hn⟩ : Fin N) (0 : Fin 1) k p q) := by
  refine (shapeCast_apply _ h (ix3 k p q) (ix5 (0 : Fin 1) (0 : Fin 1) k p q) ?_).trans ?_
  · rw [Shape.rowMajor_val_five, Shape.rowMajor_val_three]
    show (((0 * 1 + 0) * a + k.val) * b + p.val) * c + q.val = (k.val * b + p.val) * c + q.val
    simp only [Nat.zero_mul, Nat.zero_add]
  · refine congrArg X ?_
    funext d
    apply Fin.ext
    match d with
    | ⟨0, _⟩ => show n + 1 * 0 = n; omega
    | ⟨1, _⟩ => show 0 + 1 * 0 = 0; omega
    | ⟨2, _⟩ => show 0 + 1 * k.val = k.val; omega
    | ⟨3, _⟩ => show 0 + 1 * p.val = p.val; omega
    | ⟨4, _⟩ => show 0 + 1 * q.val = q.val; omega

end Cert.LeadAxis

end
-- ==== Proof.KerPayload.lean ====
/-
  The two payloads of the kernel body read at an index, over the extended reals.

  `k0_pay1` is the projected tile: the product of the table tile and the weight matrix (both narrowed to bf16 on the
  way in, which changes nothing over the extended reals) into a zero accumulator, plus the bias row spread over the
  tile's rows. At `(r, d)` it is `Σ_k tile(r, k) · W(k, d) + bias(0, d)`.
  `k0_pay2` adds the projected tile, lifted to a leading unit axis and spread over the two batch elements of the block,
  to the input block. At `(a, r, d)` it is `x(a, r, d) + P(r, d)`.
-/
import proofs.«106605_g47974784697239_cont_8to1_c_969_7_alg».proof.Proof.Gen.KernelIdeal.Skeleton
import proofs.«106605_g47974784697239_cont_8to1_c_969_7_alg».proof.Proof.LibMatmulNN
import proofs.«106605_g47974784697239_cont_8to1_c_969_7_alg».proof.Proof.LibLeadAxis
import Idealize.ShloMosaic.Lib.ValueLayout
import Idealize.ShloMosaic.Lib.Pipeline.Value
import Idealize.ShloMosaic.PureOps.Ideal.Laws

noncomputable section

open scoped BigOperators

namespace Cert.KernelIdeal.KerValue

open Cert.KernelIdeal Cert.KernelIdeal.Gen Idealize.ShloMosaic Idealize.ShloMosaic.ValueIdx

/-- The projected tile at row `r`, column `d`: the contraction of the tile's row with the weight's column, plus the
    bias at that column. -/
theorem pay1_apply (tb : Vec Ideal S1024x1024 .f32) (w : Vec Ideal S1024x1024 .f32) (bs : Vec Ideal S1x1024 .f32)
    (r : Fin 1024) (d : Fin 1024) :
    k0_pay1 (F := Ideal) tb w bs (ix2 r d)
      = (∑ k : Fin 1024, tb (ix2 r k) * w (ix2 k d)) + bs (ix2 (0 : Fin 1) d) := by
  unfold k0_pay1
  rw [shapeCast_self, shapeCast_self]
  refine (addf_apply _ _ _).trans ?_
  refine congrArg₂ (· + ·) ?_ ?_
  · refine (Cert.LibMatmulNN.matmul_nn_apply dot_S1024x1024_S1024x1024_S1024x1024_1_0_0_1_n_n rfl rfl rfl rfl rfl rfl
      none _ _ r d).trans ?_
    rfl
  · exact broadcastTo_1b_ab_apply _ _ r d

/-- The output block at batch element `a`, row `r`, column `d`: the input block there plus the projected tile at `(r, d)`. -/
theorem pay2_apply (x : Vec Ideal S2x1024x1024 .f32) (p : Vec Ideal S1024x1024 .f32)
    (a : Fin 2) (r : Fin 1024) (d : Fin 1024) :
    k0_pay2 (F := Ideal) x p (ix3 a r d) = x (ix3 a r d) + p (ix2 r d) := by
  unfold k0_pay2
  refine (addf_apply _ _ _).trans ?_
  refine congrArg (x (ix3 a r d) + ·) ?_
  refine (Cert.LeadAxis.broadcastTo_1bc_abc_apply _ _ a r d).trans ?_
  exact shapeCast_ab_1ab_apply p _ 0 r d

end Cert.KernelIdeal.KerValue

end
-- ==== Proof.KerBlocks.lean ====
/-
  Where each block of a grid point sits in its array.

  The grid has 16 points, point `t` being tile `t / 2` of the 8 sequence tiles and batch pair `t % 2` of the 2 batch
  pairs. At point `t` the table window holds rows `1024·(t / 2) … 1024·(t / 2) + 1023` of the table, the weight and bias
  windows hold their whole arrays, and the input and output windows hold batch elements `2·(t % 2), 2·(t % 2) + 1` and
  the same rows. The bias window's array is the bias vector laid out as one row by the host before the launch.
-/
import proofs.«106605_g47974784697239_cont_8to1_c_969_7_alg».proof.Proof.Gen.KernelIdeal.Frame
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.KerValue

open Cert.KernelIdeal Cert.KernelIdeal.Gen Idealize.ShloMosaic.ValueIdx

variable (m : (ℓ : Loc nD τ sig) → Buf (Elt Ideal) ℓ)

/-- The printed index maps at every grid point, decided once over the 16 points. -/
theorem idx_facts : ∀ t : Fin cfg0.N,
    win0_0.index t (0 : Fin 2) = t.val / 2 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val % 2 ∧ win0_3.index t (1 : Fin 3) = t.val / 2 ∧ win0_3.index t (2 : Fin 3) = 0
    ∧ win0_4.index t (0 : Fin 3) = t.val % 2 ∧ win0_4.index t (1 : Fin 3) = t.val / 2 ∧ win0_4.index t (2 : Fin 3) = 0 :=
  (by decide +kernel : ∀ t : Fin grid0.N, _)

/-- The table row (sequence position) that row `r` of point `t`'s tile is. -/
def trow (t : Fin cfg0.N) (r : Fin 1024) : Fin 8192 :=
  ⟨1024 * (t.val / 2) + r.val, by
    have hN : t.val < 16 := lt_of_lt_of_eq t.isLt (show cfg0.N = 16 from N_0)
    omega⟩

/-- The batch element that element `a` of point `t`'s batch pair is. -/
def brow (t : Fin cfg0.N) (a : Fin 2) : Fin 4 := ⟨2 * (t.val % 2) + a.val, by omega⟩

/-- The table window's block at point `t`: rows `trow t ·` of the table. -/
theorem iblk0_apply (c : Dev nD) (t : Fin cfg0.N) (r k : Fin 1024) :
    (iblk m c 0 t : Vec Ideal S1024x1024 .f32) (ix2 r k) = V m c main_arg1 (ix2 (trow t r) k) := by
  obtain ⟨e0, e1, -⟩ := idx_facts t
  show V m c main_arg1 (((cfg0.win 0).blk t).view.emb (ix2 r k)) = _
  refine congrArg _ (funext fun a => Fin.ext ?_)
  match a with
  | ⟨0, _⟩ => show win0_0.index t (0 : Fin 2) * 1024 + 1 * r.val = 1024 * (t.val / 2) + r.val; rw [e0]; omega
  | ⟨1, _⟩ => show win0_0.index t (1 : Fin 2) * 1024 + 1 * k.val = k.val; rw [e1]; omega

/-- The weight window's block is the whole weight matrix. -/
theorem iblk1_apply (c : Dev nD) (t : Fin cfg0.N) (k d : Fin 1024) :
    (iblk m c 1 t : Vec Ideal S1024x1024 .f32) (ix2 k d) = V m c main_arg2 (ix2 k d) := by
  obtain ⟨-, -, e0, e1, -⟩ := idx_facts t
  show V m c main_arg2 (((cfg0.win 1).blk t).view.emb (ix2 k d)) = _
  refine congrArg _ (funext fun a => Fin.ext ?_)
  match a with
  | ⟨0, _⟩ => show win0_1.index t (0 : Fin 2) * 1024 + 1 * k.val = k.val; rw [e0]; omega
  | ⟨1, _⟩ => show win0_1.index t (1 : Fin 2) * 1024 + 1 * d.val = d.val; rw [e1]; omega

/-- The bias window's block is the whole bias row. -/
theorem iblk2_apply (c : Dev nD) (t : Fin cfg0.N) (d : Fin 1024) :
    (iblk m c 2 t : Vec Ideal S1x1024 .f32) (ix2 (0 : Fin 1) d) = V m c main_v0 (ix2 (0 : Fin 1) d) := by
  obtain ⟨-, -, -, -, e0, e1, -⟩ := idx_facts t
  show V m c main_v0 (((cfg0.win 2).blk t).view.emb (ix2 (0 : Fin 1) d)) = _
  refine congrArg _ (funext fun a => Fin.ext ?_)
  match a with
  | ⟨0, _⟩ => show win0_2.index t (0 : Fin 2) * 1 + 1 * 0 = 0; rw [e0]
  | ⟨1, _⟩ => show win0_2.index t (1 : Fin 2) * 1024 + 1 * d.val = d.val; rw [e1]; omega

/-- The input window's block at point `t`: batch elements `brow t ·`, rows `trow t ·` of the input. -/
theorem iblk3_apply (c : Dev nD) (t : Fin cfg0.N) (a : Fin 2) (r d : Fin 1024) :
    (iblk m c 3 t : Vec Ideal S2x1024x1024 .f32) (ix3 a r d) = V m c main_arg0 (ix3 (brow t a) (trow t r) d) := by
  obtain ⟨-, -, -, -, -, -, e0, e1, e2, -⟩ := idx_facts t
  show V m c main_arg0 (((cfg0.win 3).blk t).view.emb (ix3 a r d)) = _
  refine congrArg _ (funext fun x => Fin.ext ?_)
  match x with
  | ⟨0, _⟩ => show win0_3.index t (0 : Fin 3) * 2 + 1 * a.val = 2 * (t.val % 2) + a.val; rw [e0]; omega
  | ⟨1, _⟩ => show win0_3.index t (1 : Fin 3) * 1024 + 1 * r.val = 1024 * (t.val / 2) + r.val; rw [e1]; omega
  | ⟨2, _⟩ => show win0_3.index t (2 : Fin 3) * 1024 + 1 * d.val = d.val; rw [e2]; omega

/-- The output window's block at point `t` sits at the same batch elements and rows of the result array. -/
theorem oblk_emb (t : Fin cfg0.N) (a : Fin 2) (r d : Fin 1024) :
    ((cfg0.win 4).blk t).view.emb (ix3 a r d) = ix3 (brow t a) (trow t r) d := by
  obtain ⟨-, -, -, -, -, -, -, -, -, e0, e1, e2⟩ := idx_facts t
  refine funext fun x => Fin.ext ?_
  match x with
  | ⟨0, _⟩ => show win0_4.index t (0 : Fin 3) * 2 + 1 * a.val = 2 * (t.val % 2) + a.val; rw [e0]; omega
  | ⟨1, _⟩ => show win0_4.index t (1 : Fin 3) * 1024 + 1 * r.val = 1024 * (t.val / 2) + r.val; rw [e1]; omega
  | ⟨2, _⟩ => show win0_4.index t (2 : Fin 3) * 1024 + 1 * d.val = d.val; rw [e2]; omega

/-- The bias row the region finds is the bias vector: the host lays the vector out as `[1, 1024]` before the launch,
    and nothing writes the vector. -/
theorem bias_row (c : Dev nD) (d : Fin 1024) :
    V m c main_v0 (ix2 (0 : Fin 1) d) = m ((c : Thread nD τ).loc main_arg3) (ix1 d) := by
  have e : (V m c main_v0 : S1x1024.Idx → Ideal .f32)
      = shapeCast S1x1024 (m ((c : Thread nD τ).loc main_arg3)) shapeCasts_S1024_S1x1024 := by
    dsimp only [Gen.V, Gen.hostOps0]; after_results; rfl
  exact (congrFun e _).trans (shapeCast_a_1a_apply _ _ 0 d)

end Cert.KernelIdeal.KerValue

end
-- ==== Proof.Spec.lean ====
/-
  The common value of both programs, over the extended reals.

  Each row `s` of the position table is projected by the dense layer once, `proj s d = Σ_k table[s, k] · W[k, d] + bias[d]`,
  and that projected row is added to row `s` of every batch element: `out[a, s, d] = x[a, s, d] + proj s d`.
-/
import Idealize.ShloMosaic.PureOps.Ideal
import Idealize.ShloMosaic.Lib.ValueIdx

noncomputable section

open scoped BigOperators

namespace Cert.PosEmbed

open Idealize.ShloMosaic Idealize.ShloMosaic.ValueIdx

/-- Row `s` of the table through the dense layer, at column `d`: the contraction over the model axis plus the bias. -/
def proj (tbl : FVec Ideal ⟨2, ![8192, 1024]⟩ .f32) (W : FVec Ideal ⟨2, ![1024, 1024]⟩ .f32)
    (b : FVec Ideal ⟨1, ![1024]⟩ .f32) (s : Fin 8192) (d : Fin 1024) : Ideal .f32 :=
  (∑ k : Fin 1024, tbl (ix2 s k) * W (ix2 k d)) + b (ix1 d)

/-- The whole result array as one function of the four argument arrays. -/
def G (x : FVec Ideal ⟨3, ![4, 8192, 1024]⟩ .f32) (tbl : FVec Ideal ⟨2, ![8192, 1024]⟩ .f32)
    (W : FVec Ideal ⟨2, ![1024, 1024]⟩ .f32) (b : FVec Ideal ⟨1, ![1024]⟩ .f32) :
    FVec Ideal ⟨3, ![4, 8192, 1024]⟩ .f32 :=
  fun i => x i + proj tbl W b (i 1) (i 2)

/-- The result at batch element `a`, position `s`, column `d`. -/
theorem G_apply (x : FVec Ideal ⟨3, ![4, 8192, 1024]⟩ .f32) (tbl : FVec Ideal ⟨2, ![8192, 1024]⟩ .f32)
    (W : FVec Ideal ⟨2, ![1024, 1024]⟩ .f32) (b : FVec Ideal ⟨1, ![1024]⟩ .f32)
    (a : Fin 4) (s : Fin 8192) (d : Fin 1024) :
    G x tbl W b (ix3 a s d) = x (ix3 a s d) + proj tbl W b s d := rfl

end Cert.PosEmbed

end
-- ==== Proof.KerArray.lean ====
/-
  The result array of the kernel's run is the specification `G` of the argument arrays.

  The scratch carries the projected tile from the first batch step of a tile to the second: after an even point
  `t` it holds the projection of tile `t / 2`, an odd point leaves it alone, and `(t − 1) / 2 = t / 2` for odd `t`; so
  after EVERY point `t` the scratch holds the projection of the rows `1024·(t / 2) + r` (`scratch_apply`), and at every
  point the output block is the input block plus that projection (`out_apply`) — block `t` of `G`. The 16 blocks tile
  the result array (the point covering batch element `a` and row `s` is `2·(s / 1024) + a / 2`), so the array ends at `G`.
-/
import proofs.«106605_g47974784697239_cont_8to1_c_969_7_alg».proof.Proof.Gen.KernelIdeal.Value
import proofs.«106605_g47974784697239_cont_8to1_c_969_7_alg».proof.Proof.KerPieces
import proofs.«106605_g47974784697239_cont_8to1_c_969_7_alg».proof.Proof.KerPayload
import proofs.«106605_g47974784697239_cont_8to1_c_969_7_alg».proof.Proof.KerBlocks
import proofs.«106605_g47974784697239_cont_8to1_c_969_7_alg».proof.Proof.Spec

noncomputable section

open Idealize.ShloMosaic Idealize.ShloMosaic.TcCoe Idealize.SL.Sem
open Idealize.ShloMosaic.Pipeline (Dat)

namespace Cert.KernelIdeal.KerValue

open Cert.KernelIdeal Cert.KernelIdeal.Gen Cert.KernelIdeal.Value Idealize.ShloMosaic.ValueIdx Cert.PosEmbed

variable (m : (ℓ : Loc nD τ sig) → Buf (Elt Ideal) ℓ) (ρ : Dev nD → PrngReg)

/-- The projected tile computed from point `t`'s input blocks is the projection of the table rows `trow t ·`. -/
theorem tile_apply (c : Dev nD) (t : Fin cfg0.N) (r d : Fin 1024) :
    k0_pay1 (F := Ideal) (iblk m c 0 t) (iblk m c 1 t) (iblk m c 2 t) (ix2 r d)
      = proj (V m c main_arg1) (V m c main_arg2) (m ((c : Thread nD τ).loc main_arg3)) (trow t r) d := by
  refine (pay1_apply (iblk m c 0 t) (iblk m c 1 t) (iblk m c 2 t) r d).trans ?_
  unfold proj
  refine congrArg₂ (· + ·) (Finset.sum_congr rfl fun k _ => ?_) ((iblk2_apply m c t d).trans (bias_row m c d))
  exact congrArg₂ (· * ·) (iblk0_apply m c t r k) (iblk1_apply m c t k d)

/-- After an even point the scratch holds the projected tile computed at that point. -/
theorem scratch_even (c : Dev nD) (t : Fin cfg0.N) (h0 : t.val % 2 = 0) :
    (outsAt0 m c t.val t.isLt).2 = k0_pay1 (iblk m c 0 t) (iblk m c 1 t) (iblk m c 2 t) := by
  rw [outsAt0_A m c t h0]
  dsimp only
  exact scratch_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)

/-- An odd point leaves the scratch as the point before left it. -/
theorem scratch_odd (c : Dev nD) (t : Fin cfg0.N) (h0 : ¬t.val % 2 = 0) :
    (outsAt0 m c t.val t.isLt).2 = (outsAt0 m c (t.val - 1) (Nat.lt_of_le_of_lt (Nat.sub_le _ _) t.isLt)).2 := by
  rw [outsAt0_B m c t h0]
  rfl

/-- Before an odd point the scratch holds the projection of that point's own tile: the point before is even and of
    the same tile. -/
theorem scratch_prev (c : Dev nD) (t : Fin cfg0.N) (h0 : ¬t.val % 2 = 0) (r d : Fin 1024) :
    (outsAt0 m c (t.val - 1) (Nat.lt_of_le_of_lt (Nat.sub_le _ _) t.isLt)).2 (ix2 r d)
      = proj (V m c main_arg1) (V m c main_arg2) (m ((c : Thread nD τ).loc main_arg3)) (trow t r) d := by
  have hlt : t.val - 1 < cfg0.N := Nat.lt_of_le_of_lt (Nat.sub_le _ _) t.isLt
  have he : (⟨t.val - 1, hlt⟩ : Fin cfg0.N).val % 2 = 0 := by show (t.val - 1) % 2 = 0; omega
  have h2 := scratch_even m c ⟨t.val - 1, hlt⟩ he
  refine (congrFun h2 (ix2 r d)).trans ?_
  refine (tile_apply m c ⟨t.val - 1, hlt⟩ r d).trans ?_
  refine congrArg (fun s => proj (V m c main_arg1) (V m c main_arg2) (m ((c : Thread nD τ).loc main_arg3)) s d) (Fin.ext ?_)
  show 1024 * ((t.val - 1) / 2) + r.val = 1024 * (t.val / 2) + r.val
  omega

/-- After every point the scratch holds the projection of that point's tile. -/
theorem scratch_apply (c : Dev nD) (t : Fin cfg0.N) (r d : Fin 1024) :
    (outsAt0 m c t.val t.isLt).2 (ix2 r d) = proj (V m c main_arg1) (V m c main_arg2) (m ((c : Thread nD τ).loc main_arg3)) (trow t r) d := by
  by_cases h0 : t.val % 2 = 0
  · exact (congrFun (scratch_even m c t h0) (ix2 r d)).trans (tile_apply m c t r d)
  · exact (congrFun (scratch_odd m c t h0) (ix2 r d)).trans (scratch_prev m c t h0 r d)

/-- At every point the output block is the specification at the block's place in the result array. -/
theorem out_apply (c : Dev nD) (t : Fin cfg0.N) (a : Fin 2) (r d : Fin 1024) :
    (outsAt0 m c t.val t.isLt).1 (ix3 a r d) = G (V m c main_arg0) (V m c main_arg1) (V m c main_arg2) (m ((c : Thread nD τ).loc main_arg3)) (ix3 (brow t a) (trow t r) d) := by
  rw [G_apply]
  by_cases h0 : t.val % 2 = 0
  · have h1 : (outsAt0 m c t.val t.isLt).1
        = k0_pay2 (iblk m c 3 t) (k0_pay1 (iblk m c 0 t) (iblk m c 1 t) (iblk m c 2 t)) := by
      rw [outsAt0_A m c t h0]
      dsimp only
      exact out_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)
    refine (congrFun h1 (ix3 a r d)).trans ?_
    refine (pay2_apply _ _ a r d).trans ?_
    exact congrArg₂ (· + ·) (iblk3_apply m c t a r d) (tile_apply m c t r d)
  · have h1 : (outsAt0 m c t.val t.isLt).1
        = k0_pay2 (iblk m c 3 t) ((outsAt0 m c (t.val - 1) (Nat.lt_of_le_of_lt (Nat.sub_le _ _) t.isLt)).2) := by
      rw [outsAt0_B m c t h0]
      dsimp only
      exact out_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t)
        ((outsAt0 m c (t.val - 1) (Nat.lt_of_le_of_lt (Nat.sub_le _ _) t.isLt)).2)
    refine (congrFun h1 (ix3 a r d)).trans ?_
    refine (pay2_apply _ _ a r d).trans ?_
    exact congrArg₂ (· + ·) (iblk3_apply m c t a r d) (scratch_prev m c t h0 r d)

/-- What point `t` writes back is block `t` of the specification of the arrays as the region finds them. -/
theorem flushed_eq (c : Dev nD) (t : Fin cfg0.N) :
    (dats m 0 c).flushed 4 t = ((cfg0.win 4).blk t).view.read (Elt Ideal) (G (V m c main_arg0) (V m c main_arg1) (V m c main_arg2) (m ((c : Thread nD τ).loc main_arg3))) := by
  rw [flushed4]
  funext j
  obtain ⟨a, r, d, rfl⟩ : ∃ (a : Fin 2) (r : Fin 1024) (d : Fin 1024), j = ix3 a r d := ⟨j 0, j 1, j 2, eq_ix3 j⟩
  show (outsAt0 m c t.val t.isLt).1 (ix3 a r d) = G (V m c main_arg0) (V m c main_arg1) (V m c main_arg2) (m ((c : Thread nD τ).loc main_arg3)) (((cfg0.win 4).blk t).view.emb (ix3 a r d))
  rw [oblk_emb]
  exact out_apply m c t a r d

/-- An index of the result array is in point `t`'s block iff each coordinate is in the block's range on its axis. -/
theorem mem_blk (t : Fin cfg0.N) (i : S4x8192x1024.Idx) :
    i ∈ ((cfg0.win 4).blk t).view.set ↔ ∀ a : Fin 3, win0_4.index t a * S2x1024x1024.size a ≤ (i a).val
      ∧ (i a).val < win0_4.index t a * S2x1024x1024.size a + S2x1024x1024.size a := by
  show i ∈ ((View.whole main_v1).slice (win0_4.rect t)).set ↔ _
  rw [View.set_slice_whole, Rect.mem_set_unit]
  exact Iff.rfl

/-- Every index of the result array is in some point's block: batch element `a`, row `s` is in the block of the point
    of tile `s / 1024` and batch pair `a / 2`. -/
theorem cover (i : S4x8192x1024.Idx) :
    ∃ t : Fin cfg0.N, (cfg0.win 4).flush t = true ∧ i ∈ ((cfg0.win 4).blk t).view.set := by
  have h0 : (i 0).val < 4 := (i 0).isLt
  have h1 : (i 1).val < 8192 := (i 1).isLt
  have h2 : (i 2).val < 1024 := (i 2).isLt
  obtain ⟨t, ht⟩ : ∃ t : Fin cfg0.N, t.val = 2 * ((i 1).val / 1024) + (i 0).val / 2 :=
    ⟨⟨2 * ((i 1).val / 1024) + (i 0).val / 2, by rw [show cfg0.N = 16 from N_0]; omega⟩, rfl⟩
  obtain ⟨-, -, -, -, -, -, -, -, -, e0, e1, e2⟩ := idx_facts t
  refine ⟨t, flush0_4 t, ?_⟩
  rw [mem_blk]
  intro a
  match a with
  | ⟨0, _⟩ =>
    show win0_4.index t (0 : Fin 3) * 2 ≤ (i 0).val ∧ (i 0).val < win0_4.index t (0 : Fin 3) * 2 + 2
    rw [e0]; omega
  | ⟨1, _⟩ =>
    show win0_4.index t (1 : Fin 3) * 1024 ≤ (i 1).val ∧ (i 1).val < win0_4.index t (1 : Fin 3) * 1024 + 1024
    rw [e1]; omega
  | ⟨2, _⟩ =>
    show win0_4.index t (2 : Fin 3) * 1024 ≤ (i 2).val ∧ (i 2).val < win0_4.index t (2 : Fin 3) * 1024 + 1024
    rw [e2]; omega

/-- The result array after the run is the specification of the argument arrays as launched. -/
theorem final (c : Dev nD) : (dats m 0 c).arrAt 4 cfg0.N
    = G (m ((c : Thread nD τ).loc main_arg0)) (m ((c : Thread nD τ).loc main_arg1))
        (m ((c : Thread nD τ).loc main_arg2)) (m ((c : Thread nD τ).loc main_arg3)) := by
  have h := (dats m 0 c).arrAt_eq_of_cover 4 (G (V m c main_arg0) (V m c main_arg1) (V m c main_arg2) (m ((c : Thread nD τ).loc main_arg3))) (fun t _ => flushed_eq m c t) cover
  rw [V_main_arg0, V_main_arg1, V_main_arg2] at h
  exact h

/-- The kernel's run: the result array at the specification of the arguments, the arguments unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.KerValue

end
-- ==== Proof.RefRun.lean ====
/-
  The reference program's run, read back.

  The reference is `inputs + (take(table, arange(8192), axis = 0) @ W + b)[None]`. Its @main is one straight line of
  host operations once the two outlined functions are put back at their calls: `_take` (the normalization of the
  indices, the range mask, the gather of rows and the select against the fill value) and, inside it, `_where` (one
  select). This module lists those operations in order, shows @main is that line, names the pure term the line
  composes for the result (`out`, through `pos`, `idx`, `idxCol`, `inRange`, `taken`), and states the run: every weakly
  fair execution terminates with the result buffer at `out` of the four argument arrays and the arguments unchanged.
-/
import proofs.«106605_g47974784697239_cont_8to1_c_969_7_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The pure terms -/

/-- The positions `0, 1, …, 8191`: the iota along the one axis. -/
def pos : IVec S8192 32 := iotaInDim S8192 32 0

/-- The positions as `take` normalizes an index: a negative one has the table's length `8192` added. -/
def idx : IVec S8192 32 :=
  select (cmpi .slt pos (broadcastInDim S8192 ![] bcast_S_S8192 (constantI S_ 32 0#32)))
    (addi pos (broadcastInDim S8192 ![] bcast_S_S8192 (constantI S_ 32 8192#32))) pos

/-- The normalized positions as a column of start indices. -/
def idxCol : IVec S8192x1 32 := broadcastInDim S8192x1 ![0] bcast_S8192_S8192x1_0 idx

/-- Per position, whether its start index lies in `[0, 8191]`: both comparisons, and the conjunction over the
    column's unit axis. -/
def inRange : IVec S8192 1 :=
  Host.reduce IntOp.andi
    (andi (cmpi .sge idxCol (broadcastInDim S8192x1 ![] bcast_S_S8192x1 (constantI S_ 32 0#32)))
      (cmpi .sle idxCol (broadcastInDim S8192x1 ![0, 1] bcast_S1x1_S8192x1_0_1
        (broadcastInDim S1x1 ![1] bcast_S1_S1x1_1 (constantI S1 32 8191#32)))))
    (constantI S_ 1 1#1) reducesTo_S8192x1_S8192_d1 h_S_

/-- The rows of the table taken at the positions: the gathered row where the index is in range, the fill value
    elsewhere. -/
def taken (tbl : FVec F S8192x1024 .f32) : FVec F S8192x1024 .f32 :=
  select (broadcastInDim S8192x1024 ![0] bcast_S8192_S8192x1024_0 inRange)
    (Host.gather gather_S8192x1024_S8192x1_S8192x1024_1_0_n_n_0_1_11024 tbl idxCol)
    (broadcastInDim S8192x1024 ![] bcast_S_S8192x1024 (constant S_ .f32 0x7FC00000#32))

/-- The taken rows through the dense layer: the product with the weights plus the bias broadcast along the rows. -/
def dense (tbl : FVec F S8192x1024 .f32) (W : FVec F S1024x1024 .f32) (b : FVec F S1024 .f32) : FVec F S8192x1024 .f32 :=
  addf (Host.dotGeneral dot_S8192x1024_S1024x1024_S8192x1024_1_0_0_1_n_n none (taken tbl) W)
    (broadcastInDim S8192x1024 ![0, 1] bcast_S1x1024_S8192x1024_0_1 (broadcastInDim S1x1024 ![1] bcast_S1024_S1x1024_1 b))

/-- The result: the inputs plus the projected rows, the same for every batch element. -/
def out (x : FVec F S4x8192x1024 .f32) (tbl : FVec F S8192x1024 .f32) (W : FVec F S1024x1024 .f32) (b : FVec F S1024 .f32) :
    FVec F S4x8192x1024 .f32 :=
  addf x (broadcastInDim S4x8192x1024 ![0, 1, 2] bcast_S1x8192x1024_S4x8192x1024_0_1_2
    (broadcastInDim S1x8192x1024 ![1, 2] bcast_S8192x1024_S1x8192x1024_1_2 (dense tbl W b)))

/-! ## The program as a list of operations -/

/-- @main's operations in order, the calls unfolded: the iota; `_take`'s twenty-three over the call's buffers (its
    seventh the one select of `_where`); the product, the bias's two broadcasts, the sum, the two broadcasts to
    the batch and the final sum. -/
abbrev ops : List (HloOp τ sig (Elt F)) :=
  [ nullary main_v0 (iotaInDim S8192 32 0),
    TRef.nullary main_call0.c (constantI S_ 32 0#32),
    TRef.unary main_call0.c main_call0.v0 (broadcastInDim S8192 ![] bcast_S_S8192),
    TRef.binary (.of main_v0) main_call0.v0 main_call0.v1 (cmpi .slt),
    TRef.nullary main_call0.c_0 (constantI S_ 32 8192#32),
    TRef.unary main_call0.c_0 main_call0.v2 (broadcastInDim S8192 ![] bcast_S_S8192),
    TRef.binary (.of main_v0) main_call0.v2 main_call0.v3 addi,
    TRef.ternary main_call0.v1 main_call0.v3 (.of main_v0) main_call0.call0.v0 select,
    TRef.unary main_call0.call0.v0 main_call0.v5 (broadcastInDim S8192x1 ![0] bcast_S8192_S8192x1_0),
    TRef.nullary main_call0.c_1 (constantI S1 32 8191#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg1) main_call0.v5 main_call0.v13 (fun x i => Host.gather gather_S8192x1024_S8192x1_S8192x1024_1_0_n_n_0_1_11024 x i),
    TRef.unary main_call0.v12 main_call0.v14 (broadcastInDim S8192x1024 ![0] bcast_S8192_S8192x1024_0),
    TRef.nullary main_call0.cst (constant S_ .f32 0x7FC00000#32),
    TRef.unary main_call0.cst main_call0.v15 (broadcastInDim S8192x1024 ![] bcast_S_S8192x1024),
    TRef.ternary main_call0.v14 main_call0.v13 main_call0.v15 main_call0.v16 select,
    binary main_v1 main_arg2 main_v2 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
    unary main_arg3 main_v3 (broadcastInDim S1x1024 ![1] bcast_S1024_S1x1024_1 : (⟨S1024, .f32⟩ : BufTy).Contents (Elt F) → (⟨S1x1024, .f32⟩ : BufTy).Contents (Elt F)),
    unary main_v3 main_v4 (broadcastInDim S8192x1024 ![0, 1] bcast_S1x1024_S8192x1024_0_1 : (⟨S1x1024, .f32⟩ : BufTy).Contents (Elt F) → (⟨S8192x1024, .f32⟩ : BufTy).Contents (Elt F)),
    binary main_v2 main_v4 main_v5 (addf : (⟨S8192x1024, .f32⟩ : BufTy).Contents (Elt F) → (⟨S8192x1024, .f32⟩ : BufTy).Contents (Elt F) → (⟨S8192x1024, .f32⟩ : BufTy).Contents (Elt F)),
    unary main_v5 main_v6 (broadcastInDim S1x8192x1024 ![1, 2] bcast_S8192x1024_S1x8192x1024_1_2 : (⟨S8192x1024, .f32⟩ : BufTy).Contents (Elt F) → (⟨S1x8192x1024, .f32⟩ : BufTy).Contents (Elt F)),
    unary main_v6 main_v7 (broadcastInDim S4x8192x1024 ![0, 1, 2] bcast_S1x8192x1024_S4x8192x1024_0_1_2 : (⟨S1x8192x1024, .f32⟩ : BufTy).Contents (Elt F) → (⟨S4x8192x1024, .f32⟩ : BufTy).Contents (Elt F)),
    binary main_arg0 main_v7 main_v8 (addf : (⟨S4x8192x1024, .f32⟩ : BufTy).Contents (Elt F) → (⟨S4x8192x1024, .f32⟩ : BufTy).Contents (Elt F) → (⟨S4x8192x1024, .f32⟩ : BufTy).Contents (Elt F)) ]

-- thirty-one binds re-associated
set_option maxRecDepth 1024 in
/-- @main is that straight line: the two functions' definitions unfolded at their calls, both sides are one chain of
    steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    binary_bufs_sub .., unary_bufs_sub .., unary_bufs_sub .., binary_bufs_sub .., unary_bufs_sub .., unary_bufs_sub ..,
    binary_bufs_sub ..⟩

attribute [local irreducible] Host.reduce Host.gather in
set_option maxRecDepth 8192 in
/-- What the line leaves in the result buffer is `out` of what the four argument buffers held: each operation's result
    read at its own buffer, every other buffer left as it was; the typed references' transports are identities at
    these literal references. The reduction and the gather stay folded meanwhile (the equation never
    looks inside them). -/
theorem fold_out (V : Valuation τ sig (Elt F)) :
    after ops V (main_v8 : DevRef τ sig)
      = out (V (main_arg0 : DevRef τ sig)) (V (main_arg1 : DevRef τ sig)) (V (main_arg2 : DevRef τ sig))
          (V (main_arg3 : DevRef τ sig)) := by
  after_results_simp
  rfl

/-- No operation of the line writes an argument's buffer. -/
theorem fold_arg0 (V : Valuation τ sig (Elt F)) : after ops V (main_arg0 : DevRef τ sig) = V (main_arg0 : DevRef τ sig) := by
  after_results_simp
theorem fold_arg1 (V : Valuation τ sig (Elt F)) : after ops V (main_arg1 : DevRef τ sig) = V (main_arg1 : DevRef τ sig) := by
  after_results_simp
theorem fold_arg2 (V : Valuation τ sig (Elt F)) : after ops V (main_arg2 : DevRef τ sig) = V (main_arg2 : DevRef τ sig) := by
  after_results_simp
theorem fold_arg3 (V : Valuation τ sig (Elt F)) : after ops V (main_arg3 : DevRef τ sig) = V (main_arg3 : DevRef τ sig) := by
  after_results_simp

/-- Every weakly fair execution of @main terminates with every buffer at the fold of the operations over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibGatherRows.lean ====
/-
  A general lemma: `stablehlo.gather` of WHOLE ROWS of a rank-2 operand, read at an index.

  What `jnp.take(x, idx, axis = 0)` of a table `x : [N, C]` at an integer vector `idx : [R]` lowers to: a gather with
  offset_dims `[1]`, collapsed_slice_dims `[0]`, start_index_map `[0]`, index_vector_dim `1` and slice sizes `[1, C]`
  over the indices as a column `[R, 1]`. Result element `(t, d)` is `x` at row `idx[t, 0]` — read as a signed integer
  and clamped into `[0, N − 1]`, as the gather clamps every start index — and column `d`: on the operand's row axis
  the clamped start index alone (that axis is collapsed: no offset), on its column axis the result's own column
  coordinate alone (that axis is not in the start index map: start `0`).
-/
import Idealize.ShloMosaic.PureOps
import Idealize.ShloMosaic.Lib.ValueIdx

noncomputable section

namespace Cert.Lib.GatherRows

open Idealize.ShloMosaic Idealize.ShloMosaic.ValueIdx

variable {α : Type}

/-- Those dimension numbers for an operand `[N, C]`, start indices `[R, 1]` and result `[R, C]`; their conditions
    `wf` are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(t, d)`: the operand at row `r`, the start index `idx[t, 0]` read signed and clamped into
    `[0, N − 1]`, and column `d`. The row is a variable with its defining equation, so that a user substitutes the
    row it has computed without rewriting under an index's bound proof. -/
theorem gather_rows_apply {N C R w : Nat}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (t : Fin R) (d : Fin C) (r : Fin N)
    (hr : r.val = min (idx (ix2 t (0 : Fin 1))).toInt.toNat (N - 1)) :
    Host.gather (rowDims N C R wf) x idx (ix2 t d) = x (ix2 r d) := by
  unfold Host.gather
  refine congrArg x (funext fun a => Fin.ext ?_)
  match a with
  | ⟨0, _⟩ =>
    show (rowDims N C R wf).start (ix2 t d) idx 0 + (rowDims N C R wf).batchCoord (ix2 t d) 0
      + (rowDims N C R wf).offCoord (ix2 t d) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 t d) ⟨List.idxOf (0 : Fin 2) (rowDims N C R wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi, hr]
    rfl
  | ⟨1, _⟩ =>
    show (rowDims N C R wf).start (ix2 t d) idx 1 + (rowDims N C R wf).batchCoord (ix2 t d) 1
      + (rowDims N C R wf).offCoord (ix2 t d) 1 = d.val
    rw [GatherDims.batchCoord_eq_zero _ _ _ List.not_mem_nil]
    unfold GatherDims.start
    have h10 : (1 : Fin 2) ∉ ([0] : List (Fin 2)) := by decide
    rw [dif_neg (show (1 : Fin 2) ∉ (rowDims N C R wf).startIndexMap from h10)]
    unfold GatherDims.offCoord
    rw [dif_pos ((GatherDims.mem_sKept _ _).mpr ⟨(show (1 : Fin 2) ∉ (rowDims N C R wf).collapsedSliceDims from h10), List.not_mem_nil⟩)]
    simp only [Nat.add_zero, Nat.zero_add]
    rfl

end Cert.Lib.GatherRows

end
-- ==== Proof.LibHostMatmulNN.lean ====
/-
  A host program's matrix product `A · B` and a vector broadcast along the rows of a matrix, read at an index on the
  extended reals.

  `stablehlo.dot_general` of an `[M, K]` by a `[K, N]` operand — the left operand's last axis contracted with the right
  operand's first, no batch axes (jnp `x @ W`; dimension numbers `[1] x [0]`, free axes `[0]` and `[1]`) — is, at
  `(i, j)`, the sum over `k : Fin K` of `A(i, k) · B(k, j)`: the host's schedule of the additions does not matter on
  the extended reals. Stated for ANY record of dimension numbers with those six lists (each hypothesis closed by `rfl`
  at a printed record); imports only the Idealize library. `stablehlo.broadcast_in_dim` of a vector `[b]` to `[a, b]` along axis 1 (jnp `broadcast_to` of a
  bias or of one row of features to every row) reads, at `(p, c)`, the vector at `c`.
-/
import Idealize.ShloMosaic.Lib.ValueIdx
import Idealize.ShloMosaic.Lib.Pipeline.Value
import Idealize.ShloMosaic.PureOps.Ideal.Laws

noncomputable section

open scoped BigOperators

namespace Cert.LibHostMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- The host's `A · B`, at `(i, j)`, is `Σ_k A[i, k] · B[k, j]`. -/
theorem hostDot_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    Host.dotGeneral d prec A B (ix2 i j) = ∑ k : Fin K, A (ix2 i k) * B (ix2 k j) := by
  have hr := contr_rank d hlc
  have hs := contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

/-- A vector `[b]` broadcast to `[a, b]` along the rows reads, at `(p, c)`, the vector at `c`. -/
theorem broadcastInDim_b_ab_apply {α : Type} {a b : ℕ} (dims : Fin 1 → Fin 2)
    (h : (⟨1, ![b]⟩ : Shape).BroadcastsInDim ⟨2, ![a, b]⟩ dims) (hd : dims 0 = 1)
    (v : (⟨1, ![b]⟩ : Shape).Idx → α) (p : Fin a) (c : Fin b) :
    broadcastInDim ⟨2, ![a, b]⟩ dims h v (ix2 p c) = v (ix1 c) := by
  refine broadcastInDim_apply dims h v (ix2 p c) (ix1 c) fun ax => ?_
  match ax with
  | ⟨0, _⟩ =>
    show c.val = if b = 1 then 0 else (ix2 p c (dims 0)).val
    rw [hd]
    show c.val = if b = 1 then 0 else c.val
    split
    · have := c.isLt; omega
    · rfl

end Cert.LibHostMatmulNN

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.LibKeepdims3.lean ====
/-
  General lemmas: a rank-3 array `[a, b, c]` reduced along its last axis with the axis kept, and the layouts that
  bring rank-2 and rank-1 operands to it, each read at an index given by coordinates.

  `jnp.mean(x, axis=-1, keepdims=True)` of `x : [a, b, c]` is a reduction `[a, b, c] → [a, b]`, the kept axis put back
  `[a, b] → [a, b, 1]`, and, where the result meets `x` again, a broadcast `[a, b, 1] → [a, b, c]`; a matrix `[b, c]`
  meets `x` through `[b, c] → [1, b, c] → [a, b, c]`, a vector `[c]` through `[c] → [1, 1, c] → [a, b, c]` (in a kernel from a
  `[1, c]` block). Read at `(p, q, k)` these are the sum over `(p, q, ·)`, the matrix at `(q, k)`, the vector at `k`.
  First the kernel's spellings (`shapeCast`, `broadcastTo`, the lane `multiReduction`), then a host program's
  (`broadcastInDim` with its `dims` a variable, of which only the images of the operand's axes are asked; `Host.reduceAdd`).
-/
import Idealize.ShloMosaic.Lib.ValueLayout
import Idealize.ShloMosaic.PureOps.Ideal.Laws

noncomputable section

open scoped BigOperators

namespace Cert.Lib.Keepdims3

open Idealize.ShloMosaic Idealize.ShloMosaic.ValueIdx

section Layout
variable {α : Type}

/-! ## A kernel's layouts -/

/-- A `[1, b, c]` array broadcast to `[a, b, c]` reads, at `(p, q, k)`, its one slab at `(q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- An `[a, b]` array cast to `[a, b, 1]` (a kept last axis) reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `[1, 1, c]` array broadcast to `[a, b, c]` reads, at `(p, q, k)`, its one row at `k`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-! ## A host program's layouts -/

/-- A matrix `[b, c]` broadcast to `[1, b, c]` (its axes sent to the last two) reads, at `(u, q, k)`, the matrix at `(q, k)`. -/
theorem broadcastInDim_bc_1bc_apply {b c : ℕ} (dims : Fin 2 → Fin 3)
    (h : (⟨2, ![b, c]⟩ : Shape).BroadcastsInDim ⟨3, ![1, b, c]⟩ dims) (hd0 : dims 0 = 1) (hd1 : dims 1 = 2)
    (v : (⟨2, ![b, c]⟩ : Shape).Idx → α) (u : Fin 1) (q : Fin b) (k : Fin c) :
    broadcastInDim ⟨3, ![1, b, c]⟩ dims h v (ix3 u q k) = v (ix2 q k) := by
  refine broadcastInDim_apply dims h v (ix3 u q k) (ix2 q k) fun ax => ?_
  match ax with
  | ⟨0, _⟩ =>
    show q.val = if b = 1 then 0 else (ix3 u q k (dims 0)).val
    rw [hd0]
    show q.val = if b = 1 then 0 else q.val
    split
    · have := q.isLt; omega
    · rfl
  | ⟨1, _⟩ =>
    show k.val = if c = 1 then 0 else (ix3 u q k (dims 1)).val
    rw [hd1]
    show k.val = if c = 1 then 0 else k.val
    split
    · have := k.isLt; omega
    · rfl

/-- A `[1, b, c]` array broadcast to `[a, b, c]`, axis to axis, reads, at `(p, q, k)`, its one slab at `(q, k)`. -/
theorem broadcastInDim_1bc_abc_apply {a b c : ℕ} (dims : Fin 3 → Fin 3)
    (h : (⟨3, ![1, b, c]⟩ : Shape).BroadcastsInDim ⟨3, ![a, b, c]⟩ dims) (hd1 : dims 1 = 1) (hd2 : dims 2 = 2)
    (v : (⟨3, ![1, b, c]⟩ : Shape).Idx → α) (p : Fin a) (q : Fin b) (k : Fin c) :
    broadcastInDim ⟨3, ![a, b, c]⟩ dims h v (ix3 p q k) = v (ix3 (0 : Fin 1) q k) := by
  refine broadcastInDim_apply dims h v (ix3 p q k) (ix3 (0 : Fin 1) q k) fun ax => ?_
  match ax with
  | ⟨0, _⟩ => rfl
  | ⟨1, _⟩ =>
    show q.val = if b = 1 then 0 else (ix3 p q k (dims 1)).val
    rw [hd1]
    show q.val = if b = 1 then 0 else q.val
    split
    · have := q.isLt; omega
    · rfl
  | ⟨2, _⟩ =>
    show k.val = if c = 1 then 0 else (ix3 p q k (dims 2)).val
    rw [hd2]
    show k.val = if c = 1 then 0 else k.val
    split
    · have := k.isLt; omega
    · rfl

/-- An `[a, b]` array broadcast to `[a, b, 1]` (a kept last axis) reads, at `(p, q, u)`, the operand at `(p, q)`. -/
theorem broadcastInDim_ab_ab1_apply {a b : ℕ} (dims : Fin 2 → Fin 3)
    (h : (⟨2, ![a, b]⟩ : Shape).BroadcastsInDim ⟨3, ![a, b, 1]⟩ dims) (hd0 : dims 0 = 0) (hd1 : dims 1 = 1)
    (v : (⟨2, ![a, b]⟩ : Shape).Idx → α) (p : Fin a) (q : Fin b) (u : Fin 1) :
    broadcastInDim ⟨3, ![a, b, 1]⟩ dims h v (ix3 p q u) = v (ix2 p q) := by
  refine broadcastInDim_apply dims h v (ix3 p q u) (ix2 p q) fun ax => ?_
  match ax with
  | ⟨0, _⟩ =>
    show p.val = if a = 1 then 0 else (ix3 p q u (dims 0)).val
    rw [hd0]
    show p.val = if a = 1 then 0 else p.val
    split
    · have := p.isLt; omega
    · rfl
  | ⟨1, _⟩ =>
    show q.val = if b = 1 then 0 else (ix3 p q u (dims 1)).val
    rw [hd1]
    show q.val = if b = 1 then 0 else q.val
    split
    · have := q.isLt; omega
    · rfl

/-- An `[a, b, 1]` array broadcast to `[a, b, c]`, axis to axis, reads, at `(p, q, k)`, the operand at `(p, q, 0)`. -/
theorem broadcastInDim_ab1_abc_apply {a b c : ℕ} (dims : Fin 3 → Fin 3)
    (h : (⟨3, ![a, b, 1]⟩ : Shape).BroadcastsInDim ⟨3, ![a, b, c]⟩ dims) (hd0 : dims 0 = 0) (hd1 : dims 1 = 1)
    (v : (⟨3, ![a, b, 1]⟩ : Shape).Idx → α) (p : Fin a) (q : Fin b) (k : Fin c) :
    broadcastInDim ⟨3, ![a, b, c]⟩ dims h v (ix3 p q k) = v (ix3 p q (0 : Fin 1)) := by
  refine broadcastInDim_apply dims h v (ix3 p q k) (ix3 p q (0 : Fin 1)) fun ax => ?_
  match ax with
  | ⟨0, _⟩ =>
    show p.val = if a = 1 then 0 else (ix3 p q k (dims 0)).val
    rw [hd0]
    show p.val = if a = 1 then 0 else p.val
    split
    · have := p.isLt; omega
    · rfl
  | ⟨1, _⟩ =>
    show q.val = if b = 1 then 0 else (ix3 p q k (dims 1)).val
    rw [hd1]
    show q.val = if b = 1 then 0 else q.val
    split
    · have := q.isLt; omega
    · rfl
  | ⟨2, _⟩ => rfl

/-- A vector `[c]` broadcast to `[1, 1, c]` (its axis sent to the last) reads, at `(u, u', k)`, the vector at `k`. -/
theorem broadcastInDim_c_11c_apply {c : ℕ} (dims : Fin 1 → Fin 3)
    (h : (⟨1, ![c]⟩ : Shape).BroadcastsInDim ⟨3, ![1, 1, c]⟩ dims) (hd0 : dims 0 = 2)
    (v : (⟨1, ![c]⟩ : Shape).Idx → α) (u u' : Fin 1) (k : Fin c) :
    broadcastInDim ⟨3, ![1, 1, c]⟩ dims h v (ix3 u u' k) = v (ix1 k) := by
  refine broadcastInDim_apply dims h v (ix3 u u' k) (ix1 k) fun ax => ?_
  match ax with
  | ⟨0, _⟩ =>
    show k.val = if c = 1 then 0 else (ix3 u u' k (dims 0)).val
    rw [hd0]
    show k.val = if c = 1 then 0 else k.val
    split
    · have := k.isLt; omega
    · rfl

/-- A `[1, 1, c]` array broadcast to `[a, b, c]`, axis to axis, reads, at `(p, q, k)`, its one row at `k`. -/
theorem broadcastInDim_11c_abc_apply {a b c : ℕ} (dims : Fin 3 → Fin 3)
    (h : (⟨3, ![1, 1, c]⟩ : Shape).BroadcastsInDim ⟨3, ![a, b, c]⟩ dims) (hd2 : dims 2 = 2)
    (v : (⟨3, ![1, 1, c]⟩ : Shape).Idx → α) (p : Fin a) (q : Fin b) (k : Fin c) :
    broadcastInDim ⟨3, ![a, b, c]⟩ dims h v (ix3 p q k) = v (ix3 (0 : Fin 1) (0 : Fin 1) k) := by
  refine broadcastInDim_apply dims h v (ix3 p q k) (ix3 (0 : Fin 1) (0 : Fin 1) k) fun ax => ?_
  match ax with
  | ⟨0, _⟩ => rfl
  | ⟨1, _⟩ => rfl
  | ⟨2, _⟩ =>
    show k.val = if c = 1 then 0 else (ix3 p q k (dims 2)).val
    rw [hd2]
    show k.val = if c = 1 then 0 else k.val
    split
    · have := k.isLt; omega
    · rfl

end Layout

/-! ## The two sums along the last axis, at the ideal values -/

/-- A kernel's lane reduction by addition of an `[a, b, c]` array along its last axis, read at `(p, q)`: the sum over
    `(p, q, ·)`. The accumulator's word is the neutral one, so it contributes nothing. -/
theorem multiReduction_add_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src (funext fun ax => Fin.ext ?_)
  match ax with
  | ⟨0, _⟩ => rfl
  | ⟨1, _⟩ => rfl
  | ⟨2, _⟩ => rfl

/-- The host's sum of an `[a, b, c]` array along its last axis, read at `(p, q)`: the initial value plus the sum over
    `(p, q, ·)`. -/
theorem hostReduceAdd_last_apply {a b c : ℕ} {φ : FTy} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduceAdd x init h' hu (ix2 p q) = init (Shape.Idx.first hu) + ∑ k : Fin c, x (ix3 p q k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl
  | ⟨2, _⟩ => rfl

end Cert.Lib.Keepdims3

end
-- ==== Proof.RefValue.lean ====
/-
  The reference's result, read at an index: it is the specification `Cert.PosEmbed.G`.

  The indices `take` is given are the positions `0 … 8191` themselves. None is negative, so the normalization keeps
  each; each lies in `[0, 8191]`, so the range mask is all ones, the gather's clamp changes nothing and row `s` of the
  gathered array is row `s` of the table, and the select against the fill value keeps the gathered row. The dense
  layer then gives, at `(s, d)`, the sum over `k` of `table[s, k] · W[k, d]` plus `b[d]`, and the two broadcasts add
  that to `inputs[a, s, d]` for every batch element `a`. Only the shape of the terms is used: nothing is asked of the
  argument arrays' values.
-/
import proofs.«106605_g47974784697239_cont_8to1_c_969_7_alg».proof.Proof.RefRun
import proofs.«106605_g47974784697239_cont_8to1_c_969_7_alg».proof.Proof.Spec
import proofs.«106605_g47974784697239_cont_8to1_c_969_7_alg».proof.Proof.LibGatherRows
import proofs.«106605_g47974784697239_cont_8to1_c_969_7_alg».proof.Proof.LibHostMatmulNN
import proofs.«106605_g47974784697239_cont_8to1_c_969_7_alg».proof.Proof.LibHostKeepdims
import proofs.«106605_g47974784697239_cont_8to1_c_969_7_alg».proof.Proof.LibKeepdims3
import Idealize.ShloMosaic.Lib.WordArith

noncomputable section

open scoped BigOperators

namespace Cert.ReferenceIdeal.RefValue

open Idealize.ShloMosaic Idealize.ShloMosaic.TcCoe Idealize.SL.Sem Cert.ReferenceIdeal
open Cert.ReferenceIdeal.Gen Cert.ReferenceIdeal.RefRun Idealize.ShloMosaic.ValueIdx Idealize.ShloMosaic.StableHlo

/-! ## The positions as 32-bit words -/

/-- A position read as a signed integer is itself: it is below `2 ^ 31`. -/
theorem toInt_pos (s : Fin 8192) : (BitVec.ofNat 32 s.val).toInt = (s.val : Int) :=
  WordArith.toInt_ofNat_small s.val (by have := s.isLt; omega)

/-- No position is negative. -/
theorem pos_not_neg (s : Fin 8192) : IntOp.cmpi .slt (BitVec.ofNat 32 s.val) 0#32 = 0#1 := by
  have h : (BitVec.ofNat 32 s.val).slt 0#32 = false := by
    rw [Bool.eq_false_iff, Ne, BitVec.slt_iff_toInt_lt, toInt_pos]
    show ¬((s.val : Int) < 0)
    omega
  show BitVec.ofBool ((BitVec.ofNat 32 s.val).slt 0#32) = 0#1
  rw [h]; rfl

/-- Every position is at least `0` … -/
theorem pos_ge_zero (s : Fin 8192) : IntOp.cmpi .sge (BitVec.ofNat 32 s.val) 0#32 = 1#1 := by
  have h : (0#32 : BitVec 32).sle (BitVec.ofNat 32 s.val) = true := by
    rw [BitVec.sle_iff_toInt_le, toInt_pos]
    show (0 : Int) ≤ (s.val : Int)
    omega
  show BitVec.ofBool ((0#32 : BitVec 32).sle (BitVec.ofNat 32 s.val)) = 1#1
  rw [h]; rfl

/-- … and at most `8191`. -/
theorem pos_le_last (s : Fin 8192) : IntOp.cmpi .sle (BitVec.ofNat 32 s.val) 8191#32 = 1#1 := by
  have h : (BitVec.ofNat 32 s.val).sle 8191#32 = true := by
    rw [BitVec.sle_iff_toInt_le, toInt_pos]
    show (s.val : Int) ≤ 8191
    have := s.isLt; omega
  show BitVec.ofBool ((BitVec.ofNat 32 s.val).sle 8191#32) = 1#1
  rw [h]; rfl

/-! ## The indices -/

/-- The normalized index at position `s` is `s`: the select keeps the position, which is not negative. -/
theorem idx_apply (s : Fin 8192) : idx (ix1 s) = BitVec.ofNat 32 s.val := by
  show Scalar.select (IntOp.cmpi .slt (BitVec.ofNat 32 s.val) 0#32) _ (BitVec.ofNat 32 s.val) = _
  rw [pos_not_neg, select_zero]

/-- The column of start indices at row `s` is `s`. -/
theorem idxCol_apply (s : Fin 8192) (u : Fin 1) : idxCol (ix2 s u) = BitVec.ofNat 32 s.val := by
  unfold idxCol
  rw [broadcastInDim_a_a1_apply _ _ rfl, idx_apply]

/-- The start index of row `s`, read signed and clamped into the table's rows, is `s`. -/
theorem clamp_eq (s : Fin 8192) : s.val = min (idxCol (ix2 s (0 : Fin 1))).toInt.toNat (8192 - 1) := by
  rw [idxCol_apply, toInt_pos, Int.toNat_natCast]
  have := s.isLt; omega

/-- A conjunction over any axes of an array that is all ones, from the initial value one, is one. -/
theorem reduce_andi_all_one {s t u : Shape} {axes : List (Fin s.rank)} (x : IVec s 1) (init : IVec u 1)
    (h : s.ReducesTo axes t) (hu : 0 < u.numel) (hx : ∀ i, x i = 1#1) (hi : init (Shape.Idx.first hu) = 1#1) (j : t.Idx) :
    Host.reduce IntOp.andi x init h hu j = 1#1 := by
  unfold Host.reduce
  rw [hi]
  generalize ((List.finRange s.numel).filter fun n => h.drop (s.rowMajor.symm n) = j) = l
  induction l with
  | nil => rfl
  | cons n l ih => rw [List.foldl_cons, hx]; exact ih

/-- Every start index is in range: the mask is one at every position. -/
theorem inRange_apply (j : S8192.Idx) : inRange j = 1#1 := by
  unfold inRange
  refine reduce_andi_all_one _ _ _ _ (fun i => ?_) rfl j
  obtain ⟨s, u, rfl⟩ : ∃ (s : Fin 8192) (u : Fin 1), i = ix2 s u := ⟨i 0, i 1, eq_ix2 i⟩
  show IntOp.andi (IntOp.cmpi .sge (idxCol (ix2 s u)) 0#32) (IntOp.cmpi .sle (idxCol (ix2 s u)) 8191#32) = 1#1
  rw [idxCol_apply, pos_ge_zero, pos_le_last]
  rfl

/-! ## The rows taken, the dense layer, the result -/

section Float

variable (x : FVec Ideal S4x8192x1024 .f32) (tbl : FVec Ideal S8192x1024 .f32) (W : FVec Ideal S1024x1024 .f32)
  (b : FVec Ideal S1024 .f32)

/-- Row `s` of the taken rows is row `s` of the table: the mask is one there, and the gather reads the row its
    start index names. -/
theorem taken_apply (s : Fin 8192) (d : Fin 1024) : taken tbl (ix2 s d) = tbl (ix2 s d) := by
  unfold taken
  rw [select_apply]
  have hm : broadcastInDim S8192x1024 ![0] bcast_S8192_S8192x1024_0 inRange (ix2 s d) = 1#1 := by
    unfold broadcastInDim
    exact inRange_apply _
  rw [hm, select_one]
  exact Cert.Lib.GatherRows.gather_rows_apply gather_S8192x1024_S8192x1_S8192x1024_1_0_n_n_0_1_11024_wf tbl idxCol s d s
    (clamp_eq s)

/-- The dense layer at `(s, d)`: the contraction of the table's row `s` with the weights' column `d`, plus the bias. -/
theorem dense_apply (s : Fin 8192) (d : Fin 1024) :
    dense tbl W b (ix2 s d) = (∑ k : Fin 1024, tbl (ix2 s k) * W (ix2 k d)) + b (ix1 d) := by
  unfold dense
  rw [addf_apply, Cert.LibHostMatmulNN.hostDot_nn_apply _ rfl rfl rfl rfl rfl rfl,
    broadcastInDim_1b_ab_apply _ _ rfl, broadcastInDim_b_1b_apply _ _ rfl]
  exact congrArg (· + b (ix1 d)) (Finset.sum_congr rfl fun k _ => by rw [taken_apply])

/-- The result at batch element `a`, position `s`, column `d`. -/
theorem out_apply (a : Fin 4) (s : Fin 8192) (d : Fin 1024) :
    out x tbl W b (ix3 a s d) = x (ix3 a s d) + Cert.PosEmbed.proj tbl W b s d := by
  unfold out
  rw [addf_apply, Cert.Lib.Keepdims3.broadcastInDim_1bc_abc_apply _ _ rfl rfl,
    Cert.Lib.Keepdims3.broadcastInDim_bc_1bc_apply _ _ rfl rfl, dense_apply]
  rfl

/-- The reference's result is the specification. -/
theorem out_eq_G : out x tbl W b = Cert.PosEmbed.G x tbl W b := by
  funext i
  obtain ⟨a, s, d, rfl⟩ : ∃ (a : Fin 4) (s : Fin 8192) (d : Fin 1024), i = ix3 a s d := ⟨i 0, i 1, i 2, eq_ix3 i⟩
  rw [out_apply, Cert.PosEmbed.G_apply]

end Float

/-! ## The run -/

/-- From any memory with zero counters, every weakly fair execution of the reference terminates with the result buffer
    at the specification of the four argument arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8)
          = Cert.PosEmbed.G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c main_v8).trans ((fold_out (launchContents m c)).trans (out_eq_G _ _ _ _)),
        (h c main_arg0).trans (fold_arg0 (launchContents m c)),
        (h c main_arg1).trans (fold_arg1 (launchContents m c)),
        (h c main_arg2).trans (fold_arg2 (launchContents m c)),
        (h c main_arg3).trans (fold_arg3 (launchContents m c))⟩)
    (run_main m ρ)

end Cert.ReferenceIdeal.RefValue

end
-- ==== Proof.lean ====
/-
  The certificate of the fused position-embedding kernel against its jnp reference.

  Both programs compute, over the extended reals, `out[a, s, d] = x[a, s, d] + (Σ_k table[s, k] · W[k, d] + bias[d])`
  (`Cert.PosEmbed.G`). The kernel projects each tile of 1024 table rows once, keeps the projected tile in a scratch
  buffer across the two batch steps of the tile, and adds it to the input blocks (`Proof/KerArray.lean`: the result
  array after the run is `G` of the arguments). The reference takes the table's rows at the positions `0 … 8191` —
  all in range, so the lookup is the table itself —, multiplies by the weight matrix, adds the bias and adds the
  result to every batch element (`Proof/RefValue.lean`: its result is `G` of the arguments). The two sides are the
  same expression index by index: no law of arithmetic is used, so finiteness of the inputs plays no part.
  The kernel's narrowing of the matrix product's operands to bf16 is the identity over the extended reals and the ideal
  pass rewrote nothing, so `preserves` is `True`. The three frames are the generated frame runs of the two kernel
  programs and the reference's run with its result dropped.
-/
import proofs.«106605_g47974784697239_cont_8to1_c_969_7_alg».proof.Defs
import proofs.«106605_g47974784697239_cont_8to1_c_969_7_alg».proof.Proof.Gen.Kernel
import proofs.«106605_g47974784697239_cont_8to1_c_969_7_alg».proof.Proof.Gen.Kernel.Skeleton
import proofs.«106605_g47974784697239_cont_8to1_c_969_7_alg».proof.Proof.Gen.Kernel.Launch
import proofs.«106605_g47974784697239_cont_8to1_c_969_7_alg».proof.Proof.Gen.Kernel.Points
import proofs.«106605_g47974784697239_cont_8to1_c_969_7_alg».proof.Proof.Gen.Kernel.Frame
import proofs.«106605_g47974784697239_cont_8to1_c_969_7_alg».proof.Proof.Gen.KernelIdeal
import proofs.«106605_g47974784697239_cont_8to1_c_969_7_alg».proof.Proof.Gen.KernelIdeal.Skeleton
import proofs.«106605_g47974784697239_cont_8to1_c_969_7_alg».proof.Proof.Gen.KernelIdeal.Launch
import proofs.«106605_g47974784697239_cont_8to1_c_969_7_alg».proof.Proof.Gen.KernelIdeal.Points
import proofs.«106605_g47974784697239_cont_8to1_c_969_7_alg».proof.Proof.Gen.KernelIdeal.Frame
import proofs.«106605_g47974784697239_cont_8to1_c_969_7_alg».proof.Proof.Gen.KernelIdeal.Value
import proofs.«106605_g47974784697239_cont_8to1_c_969_7_alg».proof.Proof.Gen.ReferenceIdeal
import proofs.«106605_g47974784697239_cont_8to1_c_969_7_alg».proof.Proof.Gen.Pre_finite_inputs
import proofs.«106605_g47974784697239_cont_8to1_c_969_7_alg».proof.Proof.KerArray
import proofs.«106605_g47974784697239_cont_8to1_c_969_7_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, with the result forgotten. -/
theorem frame_ri : Cert.frame_ReferenceIdeal := fun m ρ _ =>
  (θ_run Cert.ReferenceIdeal.defs _ _).mono (fun _ h c => (h c).2) (Cert.ReferenceIdeal.RefValue.run m ρ)

/-- The ideal pass rewrote no operation of the kernel. -/
theorem preserves : Cert.preserves_Kernel_KernelIdeal := trivial

/-- From memories that agree on the four arguments both programs end with the result array at `G` of those arguments. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
